-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : IVec S2x800000 32) (main_arg2 : FVec F S256x256 .f32) (main_arg3 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S850000 : Shape := ⟨1, ![850000]⟩
abbrev S850000x1 : Shape := ⟨2, ![850000, 1]⟩
abbrev S850000x256 : Shape := ⟨2, ![850000, 256]⟩
abbrev S1x256 : Shape := ⟨2, ![1, 256]⟩
abbrev S5000x256 : Shape := ⟨2, ![5000, 256]⟩

abbrev nBuf : Space → Nat
  | .hbm => 71
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S50000, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S_, .f32⟩
  | .hbm, ⟨19, _⟩ => ⟨S800000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .i32⟩
  | .hbm, ⟨32, _⟩ => ⟨S850000, .i32⟩
  | .hbm, ⟨33, _⟩ => ⟨S850000, .i32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .f32⟩
  | .hbm, ⟨62, _⟩ => ⟨S850000x1, .f32⟩
  | .hbm, ⟨63, _⟩ => ⟨S850000x256, .f32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S1x256, .f32⟩
  | .hbm, ⟨70, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  scatter_S50000_S800000x1_S800000_n_0_0_1_wf : ScatterDims.WF S50000 S800000x1 S800000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_1_0_0_n_n_wf : DotDims.WF S5000x256 S256x256 S5000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_1_0_0_n_n : DotDims S5000x256 S256x256 S5000x256 where
  lhsContracting := [1]
  rhsContracting := [1]
  lhsNonContracting := [0]
  rhsNonContracting := [0]
  lhsBatch := []
  rhsBatch := []
  wf := dot_S5000x256_S256x256_S5000x256_1_1_0_0_n_n_wf

abbrev win0_0 : Pipeline.Window sig grid0 :=
  Pipeline.Window.ofSpec (Memref.whole main_v48) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S850000 : Shape := ⟨1, ![850000]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 70
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S50000, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S_, .f32⟩
  | .hbm, ⟨19, _⟩ => ⟨S800000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .i32⟩
  | .hbm, ⟨25, _⟩ => ⟨S850000, .i32⟩
  | .hbm, ⟨26, _⟩ => ⟨S850000, .i32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S850000x1, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S256x256, .f32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call0_cst : Ref sig .tc := ⟨.hbm, 67, rfl⟩
abbrev main_call0_v0 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S800000x1_S800000_n_0_0_1_wf : ScatterDims.WF S50000 S800000x1 S800000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.Payload.lean ====
/-
  The kernel body's stored value at an entry of its block.

  For a block x0 of 5000 aggregated rows, the whole weight matrix x1 (output feature by input feature) and the bias carried
  as a one-row matrix x2, the body stores max(x0 · x1ᵀ + bias, 0): at the block's entry (p, q) that is
  max(Σ_k x0(p, k) · x1(q, k) + x2(0, q), 0). The two casts to bf16 before the product are the identity on exact values,
  the product contracts the SECOND axis of both operands into a zero accumulator, the bias row is repeated down the rows,
  and the final maximum is against the constant 0.
-/
import proofs.«114495_j53377853554877_2_alg».proof.Proof.Gen.KernelIdeal.Skeleton
import proofs.«114495_j53377853554877_2_alg».proof.Proof.LibRowsByRows
import Idealize.ShloMosaic.Lib.Pipeline.Value
import Idealize.ShloMosaic.Lib.ValueLayout
import Idealize.ShloMosaic.Lib.ValueIdx
import Idealize.ShloMosaic.PureOps.Ideal.Laws

noncomputable section

namespace Cert.LinearRelu

open Idealize.ShloMosaic Idealize.ShloMosaic.ValueIdx Cert.KernelIdeal Cert.KernelIdeal.Gen

/-- Entry (p, q) of the body's stored block: the inner product of row p of the aggregated block with row q of the weights,
    plus the bias at q, cut below at 0. -/
theorem body_apply (x0 : Vec Ideal S5000x256 .f32) (x1 : Vec Ideal S256x256 .f32) (x2 : Vec Ideal S1x256 .f32)
    (p : Fin 5000) (q : Fin 256) :
    k0_pay1 (F := Ideal) x0 x1 x2 (ix2 p q)
      = (max ((∑ k : Fin 256, (x0 (ix2 p k) : EReal) * (x1 (ix2 q k) : EReal)) + (x2 (ix2 (0 : Fin 1) q) : EReal)) 0 : EReal) := by
  have hmm : FloatOps.matmul (F := Ideal) (Cert.RowsByRows.rowsByRows dot_S5000x256_S256x256_S5000x256_1_1_0_0_n_n_wf) none
      (truncf (F := Ideal) .bf16 (shapeCast S5000x256 x0 shapeCasts_S5000x256_S5000x256 : FVec Ideal S5000x256 .f32) bitsLt_bf16_f32)
      (truncf (F := Ideal) .bf16 (x1 : FVec Ideal S256x256 .f32) bitsLt_bf16_f32)
      (constant (F := Ideal) S5000x256 .f32 0x00000000#32) (ix2 p q)
        = (∑ k : Fin 256, (x0 (ix2 p k) : EReal) * (x1 (ix2 q k) : EReal) : EReal) := by
    rw [Cert.RowsByRows.matmul_rowsByRows_apply]
    refine Finset.sum_congr rfl fun k _ => ?_
    rw [shapeCast_self]
    rfl
  have hb : broadcastTo S5000x256 (shapeCast S1x256 x2 shapeCasts_S1x256_S1x256) broadcasts_S1x256_S5000x256 (ix2 p q)
      = (x2 (ix2 (0 : Fin 1) q) : EReal) := by
    rw [broadcastTo_1b_ab_apply, shapeCast_self]
  unfold k0_pay1
  show max ((FloatOps.matmul (F := Ideal) (Cert.RowsByRows.rowsByRows dot_S5000x256_S256x256_S5000x256_1_1_0_0_n_n_wf) none
      (truncf (F := Ideal) .bf16 (shapeCast S5000x256 x0 shapeCasts_S5000x256_S5000x256 : FVec Ideal S5000x256 .f32) bitsLt_bf16_f32)
      (truncf (F := Ideal) .bf16 (x1 : FVec Ideal S256x256 .f32) bitsLt_bf16_f32)
      (constant (F := Ideal) S5000x256 .f32 0x00000000#32) (ix2 p q) : EReal)
      + broadcastTo S5000x256 (shapeCast S1x256 x2 shapeCasts_S1x256_S1x256) broadcasts_S1x256_S5000x256 (ix2 p q))
    (Ideal.ofBits .f32 0x00000000#32) = _
  rw [hmm, hb, Ideal.ofBits_zero_f32]

end Cert.LinearRelu

end
-- ==== Proof.Spec.lean ====
/-
  The last stage of the graph-convolution layer as one function of three arrays.

  Given the aggregated node features A (50000 nodes by 256 input features), the weights W (256 output features by 256 input
  features) and the bias b (256), the layer's output at node r and output feature j is
      max( Σ_k A(r, k) · W(j, k) + b(j), 0 ):
  the row of A against the ROW j of W (a product with the transposed weights), the bias added, the negative part cut off.
  Both programs compute this entry by this same sum over the same index k, so no law of the extended reals beyond
  rewriting the indices is needed to compare them, and no finiteness.
-/
import Idealize.ShloMosaic.PureOps.Ideal
import Idealize.ShloMosaic.Lib.ValueIdx

noncomputable section

namespace Cert.LinearRelu

open Idealize.ShloMosaic Idealize.ShloMosaic.ValueIdx

/-- relu(A · Wᵀ + b), entry by entry. -/
def linRelu (A : (⟨2, ![50000, 256]⟩ : Shape).Idx → EReal) (W : (⟨2, ![256, 256]⟩ : Shape).Idx → EReal)
    (b : (⟨1, ![256]⟩ : Shape).Idx → EReal) : (⟨2, ![50000, 256]⟩ : Shape).Idx → EReal :=
  fun i => max ((∑ k : Fin 256, A (ix2 (i 0) k) * W (ix2 (i 1) k)) + b (ix1 (i 1))) 0

theorem linRelu_apply (A : (⟨2, ![50000, 256]⟩ : Shape).Idx → EReal) (W : (⟨2, ![256, 256]⟩ : Shape).Idx → EReal)
    (b : (⟨1, ![256]⟩ : Shape).Idx → EReal) (i : (⟨2, ![50000, 256]⟩ : Shape).Idx) :
    linRelu A W b i = max ((∑ k : Fin 256, A (ix2 (i 0) k) * W (ix2 (i 1) k)) + b (ix1 (i 1))) 0 := rfl

end Cert.LinearRelu

end
-- ==== Proof.BlockEntry.lean ====
/-
  One entry of one row block, and the blocks that do not move.

  Point t of the launch reads rows 5000·t … 5000·t + 4999 of the aggregated features; the weight matrix and the one-row
  bias are read whole at every point. If a block holds, in its row p, the row of A that an output index names, then the
  body's stored entry there is relu(A · Wᵀ + b) at that index: an output entry depends on its own row of A only.
-/
import proofs.«114495_j53377853554877_2_alg».proof.Proof.Gen.KernelIdeal.Value
import proofs.«114495_j53377853554877_2_alg».proof.Proof.Payload
import proofs.«114495_j53377853554877_2_alg».proof.Proof.Spec
import Idealize.ShloMosaic.Lib.Pipeline.Value
import Idealize.ShloMosaic.Lib.ValueIdx

set_option maxRecDepth 16384

noncomputable section

namespace Cert.LinearRelu

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's rectangles start at the origin. -/
theorem origin : (![0, 0] : Fin 2 → Nat) = fun _ => 0 := funext fun a => by fin_cases a <;> rfl

/-- The block indices over the grid: the aggregated features move down the rows with the output, the weights and the
    bias stay, and nothing moves along the columns. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the ten row blocks is some point's. -/
theorem index_onto : ∀ q0 : Fin 10, ∃ t : Fin cfg0.N, win0_3.index t (0 : Fin 2) = q0.val :=
  (by decide +kernel : ∀ q0 : Fin 10, ∃ t : Fin grid0.N, win0_3.index t (0 : Fin 2) = q0.val)

/-- The function the output array ends holding, over the arrays the launch finds: relu(A · Wᵀ + b) with A the array under
    the first window, W the weights, b the one row under the bias window. -/
def kernelOut (c : Dev nD) : S50000x256.Idx → EReal :=
  linRelu (V m c main_v48) (V m c main_arg2) (fun j => (V m c main_v49 : S1x256.Idx → EReal) (ix2 (0 : Fin 1) (j 0)))

theorem kernelOut_def (c : Dev nD) : kernelOut m c
    = linRelu (V m c main_v48) (V m c main_arg2) (fun j => (V m c main_v49 : S1x256.Idx → EReal) (ix2 (0 : Fin 1) (j 0))) := rfl

/-- One entry of one block: if the block x0 holds, in its row, the row of A that the output index i names, and x1, x2 are W
    and the bias row, then the body's stored entry is relu(A · Wᵀ + b) at i. -/
theorem block_entry (A : S50000x256.Idx → EReal) (W : S256x256.Idx → EReal) (B : S1x256.Idx → EReal)
    (x0 : Vec Ideal S5000x256 .f32) (x1 : Vec Ideal S256x256 .f32) (x2 : Vec Ideal S1x256 .f32)
    (y : S5000x256.Idx) (i : S50000x256.Idx)
    (h0 : ∀ k : Fin 256, x0 (ix2 (⟨(y 0).val, idx2_lt0 y⟩ : Fin 5000) k) = A (ix2 (⟨(i 0).val, idx2_lt0 i⟩ : Fin 50000) k))
    (h1 : x1 = W) (h2 : x2 = B) (hcol : (i 1).val = (y 1).val) :
    k0_pay1 (F := Ideal) x0 x1 x2 y = linRelu A W (fun j => B (ix2 (0 : Fin 1) (j 0))) i := by
  obtain ⟨p, q, rfl⟩ : ∃ (p : Fin 5000) (q : Fin 256), y = ix2 p q := ⟨y 0, y 1, eq_ix2 y⟩
  obtain ⟨r, s, rfl⟩ : ∃ (r : Fin 50000) (s : Fin 256), i = ix2 r s := ⟨i 0, i 1, eq_ix2 i⟩
  have hs : s = q := Fin.ext hcol
  subst hs h1 h2
  have h0' : ∀ k : Fin 256, (x0 (ix2 p k) : EReal) = A (ix2 r k) := h0
  rw [body_apply, linRelu_apply]
  simp only [h0']

/-- The weights' block at every point is the whole weight matrix. -/
theorem weights_block (c : Dev nD) (t : Fin cfg0.N) : iblk m c 1 t = V m c main_arg2 := by
  obtain ⟨-, -, e10, e11, -, -, -⟩ := index_facts t
  funext y
  show V m c main_arg2 (((cfg0.win 1).blk t).view.emb y) = V m c main_arg2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The bias block at every point is the whole one-row array. -/
theorem bias_block (c : Dev nD) (t : Fin cfg0.N) : iblk m c 2 t = V m c main_v49 := by
  obtain ⟨-, -, -, -, e20, e21, -⟩ := index_facts t
  funext y
  show V m c main_v49 (((cfg0.win 2).blk t).view.emb y) = V m c main_v49 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

end Cert.LinearRelu

end
-- ==== Proof.Blocks.lean ====
/-
  From the blocks the grid points write to the whole output array.

  The launch runs over 10 grid points; point t writes back rows 5000·t … 5000·t + 4999 of the output, and what it writes
  is block t of ONE function of the whole arrays, relu(A · Wᵀ + b) (each entry by the lemma for one entry of one block,
  the block's row p being row 5000·t + p of A). The ten row blocks tile the 50000 rows (row r lies in block r / 5000),
  so the array ends holding that function everywhere.
-/
import proofs.«114495_j53377853554877_2_alg».proof.Proof.BlockEntry
import Idealize.ShloMosaic.Lib.Pipeline.Value
import Idealize.ShloMosaic.Lib.ValueIdx

set_option maxRecDepth 16384

noncomputable section

namespace Cert.LinearRelu

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/- The body's stored block and the output function enter the argument below only through the lemmas already proved about
   them (one entry of one block; the function's defining equation). -/
attribute [local irreducible] Cert.KernelIdeal.Gen.k0_pay1 kernelOut

/-- WHAT POINT t WRITES BACK is block t of the one function of the whole arrays. -/
theorem flushed_eq (c : Dev nD) (t : Fin cfg0.N) :
    (dats m 0 c).flushed 3 t = ((cfg0.win 3).blk t).view.read (Elt Ideal) (kernelOut m c) := by
  rw [Cert.KernelIdeal.Value.flushed3]
  unfold out0_3
  rw [View.canon_unit_zero origin]
  simp only [View.ld_unit_zero (S := S5000x256) origin, View.ld_unit_zero (S := S256x256) origin,
    View.ld_unit_zero (S := S1x256) origin]
  obtain ⟨e00, e01, -, -, -, -, e31⟩ := index_facts t
  funext j
  rw [View.read_apply, cast_eq, kernelOut_def]
  refine block_entry (V m c main_v48) (V m c main_arg2) (V m c main_v49) (iblk m c 0 t) (iblk m c 1 t) (iblk m c 2 t)
    ((win0 3).xinj (grid0.coords t) j) (((cfg0.win 3).blk t).view.emb j) (fun k => ?_) (weights_block m c t) (bias_block m c t) ?_
  · unfold iblk
    rw [View.read_apply, cast_eq]
    refine congrArg (V m c main_v48) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  · show win0_3.index t (1 : Fin 2) * 256 + 1 * (j 1).val = (j 1).val
    omega

/-- An index of the array is in point t's block iff each coordinate is in the block's range on its axis. -/
theorem mem_block (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v50).slice (win0_3.rect t)).set ↔ _
  rw [View.set_slice_whole, Rect.mem_set_unit]
  exact Iff.rfl

/-- The row blocks tile the array: row r lies in the block of point r / 5000. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := index_onto ⟨(i 0).val / 5000, by omega⟩
  have q0 : win0_3.index t (0 : Fin 2) = (i 0).val / 5000 := ht
  obtain ⟨-, -, -, -, -, -, e31⟩ := index_facts t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- THE ARRAY after the run: the one function, everywhere. -/
theorem final (c : Dev nD) : (dats m 0 c).arrAt 3 cfg0.N = kernelOut m c :=
  (dats m 0 c).arrAt_eq_of_cover 3 (kernelOut m c) (fun t _ => flushed_eq m c t) covered

/-- The kernel's run re-posted: the output array at the one function of the arrays the launch finds, the arguments
    unchanged. -/
theorem run : θ_run defs (onTc (τ := τ) (main (F := Ideal))) ⟨m, fun _ => 0, ρ⟩ fun r => ∀ c : Dev nD,
      r.2.mem ((c : Thread nD τ).loc main_v50) = kernelOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.LinearRelu

end
-- ==== Proof.LibCountGuard.lean ====
/-
  A count, and the inverse square root of a count guarded at zero.

  An accumulating scatter of ones into zeros holds, at each element, the NUMBER of updates that land on it: a natural
  number read as an extended real (the element starts at 0 and every landing update adds 1). For such a value D the
  guarded expression "D^(-1/2) where D > 0, else 0" is D^(-1/2) itself on the extended reals: where the count is positive the
  guard takes the power, and where it is zero the power of two finite values is the real power, whose value at base 0 and
  a nonzero exponent is 0 — the guard's other branch. (In floating point 0^(-1/2) is +∞; the exact real power is not.)
  So a degree normalisation written with the guard and one written without it are the same vector.
  The three float words 0.0, 1.0 and -0.5 are read once, here. Nothing here mentions a program.
-/
import Idealize.ShloMosaic.PureOps.Ideal
import Idealize.ShloMosaic.PureOps.Ideal.Laws

noncomputable section

namespace Cert.CountGuard

open Idealize.ShloMosaic

/-- The word of 1.0 denotes 1. -/
theorem ofBits_one : Ideal.ofBits .f32 0x3F800000#32 = 1 := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- An accumulating scatter of ones into zeros is, at each element, a natural number: the count of the updates landing
    there. -/
theorem count_nat {s si su : Shape} (d : ScatterDims s si su) {w : Nat} (Z : s.Idx → EReal) (idx : IVec si w)
    (O : su.Idx → EReal) (hZ : ∀ i, Z i = 0) (hO : ∀ j, O j = 1) (i : s.Idx) :
    ∃ n : ℕ, Ideal.hostScatterAdd d Z idx O i = ((n : ℝ) : EReal) := by
  unfold Ideal.hostScatterAdd
  refine ⟨?n, ?h⟩
  case h =>
    rw [hZ, zero_add, Finset.sum_congr rfl (fun j _ => hO j), Finset.sum_const, nsmul_one]
    exact EReal.coe_natCast.symm

/-- For a natural number n: n^(-1/2) guarded by n > 0, with 0 otherwise, is n^(-1/2). -/
theorem guarded_pow_nat (n : ℕ) :
    Scalar.select (Ideal.cmp .ogt ((n : ℝ) : EReal) 0) (Ideal.pow ((n : ℝ) : EReal) ((-(1 / 2) : ℝ) : EReal)) (0 : EReal)
      = Ideal.pow ((n : ℝ) : EReal) ((-(1 / 2) : ℝ) : EReal) := by
  unfold Scalar.select
  rcases Nat.eq_zero_or_pos n with rfl | hn
  · have hp : Ideal.pow (((0 : ℕ) : ℝ) : EReal) ((-(1 / 2) : ℝ) : EReal) = 0 := by
      rw [Nat.cast_zero, Ideal.pow_coe_coe]
      show ((Real.rpow 0 (-(1 / 2)) : ℝ) : EReal) = 0
      rw [Real.rpow_eq_pow, Real.zero_rpow (by norm_num)]
      rfl
    rw [hp, Nat.cast_zero]
    simp [Ideal.cmp]
  · have hpos : (0 : EReal) < ((n : ℝ) : EReal) := by exact_mod_cast hn
    have hc : Ideal.cmp .ogt ((n : ℝ) : EReal) 0 = (1 : BitVec 1) := by
      show BitVec.ofBool (decide ((0 : EReal) < ((n : ℝ) : EReal))) = (1 : BitVec 1)
      rw [decide_eq_true hpos]; rfl
    rw [if_pos hc]

/-- The guarded inverse square root of a count vector is the unguarded one: Z, Z', Z'' are zero vectors, O a vector of
    ones, H a vector of -1/2. -/
theorem select_count_pow {s si su : Shape} (d : ScatterDims s si su) {w : Nat} (Z : FVec Ideal s .f32) (idx : IVec si w)
    (O : FVec Ideal su .f32) (Z' H Z'' : FVec Ideal s .f32)
    (hZ : ∀ i, Z i = 0) (hO : ∀ j, O j = 1) (hZ' : ∀ i, Z' i = 0) (hH : ∀ i, H i = ((-(1 / 2) : ℝ) : EReal))
    (hZ'' : ∀ i, Z'' i = 0) :
    select (cmpf .ogt (Host.scatterAdd d Z idx O) Z') (Host.powf (Host.scatterAdd d Z idx O) H) Z''
      = Host.powf (Host.scatterAdd d Z idx O) H := by
  funext i
  obtain ⟨n, hn⟩ := count_nat d Z idx O hZ hO i
  have e : Host.scatterAdd d Z idx O i = ((n : ℝ) : EReal) := hn
  show Scalar.select (Ideal.cmp .ogt (Host.scatterAdd d Z idx O i) (Z' i)) (Ideal.pow (Host.scatterAdd d Z idx O i) (H i)) (Z'' i)
    = Ideal.pow (Host.scatterAdd d Z idx O i) (H i)
  rw [e, hZ', hH, hZ'']
  exact guarded_pow_nat n

end Cert.CountGuard

end
-- ==== Proof.LibAppend.lean ====
/-
  A list in parts: three laws about `l₁ ++ l₂`.

  A property that holds of every member of two lists holds of every member of their concatenation (stated once for
  `List.Forall`, once for `∀ x ∈ l`); and the buffer contents after a straight-line list of operations `l₁ ++ l₂` are the
  contents after `l₂` FROM the contents after `l₁`. With them a long operation list given as a concatenation of short ones is
  handled one short list at a time.
-/
import Idealize.ShloMosaic.Lib.StableHlo.Run

namespace Cert.ListParts

open Idealize.ShloMosaic Idealize.ShloMosaic.StableHlo

/-- `List.Forall` of a concatenation, from its two parts. -/
theorem forall_append {α : Type} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

/-- A property of every member of a concatenation, from its two parts. -/
theorem mem_append_all {α : Type} {P : α → Prop} {l₁ l₂ : List α} (h₁ : ∀ x ∈ l₁, P x) (h₂ : ∀ x ∈ l₂, P x) :
    ∀ x ∈ l₁ ++ l₂, P x :=
  fun x hx => (List.mem_append.mp hx).elim (h₁ x) (h₂ x)

/-- The contents after two lists of operations in a row are the second list's, from the first list's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

end Cert.ListParts
-- ==== Proof.KernelArrays.lean ====
/-
  The arrays the kernel's launch finds in its windows, as functions of the layer's inputs.

  Before the launch the kernel's entry point computes the aggregated features by the same chain of host operations as
  the reference — out-degree by an accumulating scatter of ones, its inverse square root, the per-edge coefficient
  dinv(src)·dinv(dst) over the edges with the self loops appended, the gathered rows of x scaled by it, and their
  accumulating scatter by source node — with ONE difference: the kernel's inverse square root of the degree is guarded,
  deg^(-1/2) where deg > 0 and 0 elsewhere. The degree is a count (a scatter of ones into zeros), so on the extended reals
  the guard changes nothing: at a zero count the real power 0^(-1/2) is 0, the guard's other value. Hence the array the
  kernel's first window stands on IS the reference's aggregation stage of the same inputs. The weights' window stands on
  the argument itself, and the bias window on the bias reshaped to one row.
  The entry point's operations come in three stretches (up to the power, the guard, the rest); the contents after all of
  them are read one stretch at a time.
-/
import proofs.«114495_j53377853554877_2_alg».proof.Proof.Gen.KernelIdeal.Frame
import proofs.«114495_j53377853554877_2_alg».proof.Proof.Gen.ReferenceIdeal.Read
import proofs.«114495_j53377853554877_2_alg».proof.Proof.LibCountGuard
import proofs.«114495_j53377853554877_2_alg».proof.Proof.LibAppend
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.LinearRelu

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Read

/-! ## The degree and its inverse square root, guarded and not -/

/-- The out-degree: ones scattered into zeros at the (sign-normalised) source nodes. -/
abbrev deg (x1 : (⟨S2x800000, .i32⟩ : BufTy).Contents (Elt Ideal)) : FVec Ideal S50000 .f32 := val_main_v12 (F := Ideal) x1
/-- The splat of 0.0 over the nodes. -/
abbrev zeros : FVec Ideal S50000 .f32 := val_main_v4 (F := Ideal)
/-- The splat of -0.5 over the nodes. -/
abbrev negHalf : FVec Ideal S50000 .f32 := val_main_v13 (F := Ideal)
/-- deg^(-1/2), as the reference computes it. -/
abbrev dinvPlain (x1 : (⟨S2x800000, .i32⟩ : BufTy).Contents (Elt Ideal)) : FVec Ideal S50000 .f32 := val_main_v14 (F := Ideal) x1
/-- deg^(-1/2) where deg > 0, and 0 elsewhere, as the kernel's entry point computes it. -/
abbrev dinvGuarded (x1 : (⟨S2x800000, .i32⟩ : BufTy).Contents (Elt Ideal)) : FVec Ideal S50000 .f32 :=
  select (cmpf (F := Ideal) .ogt (deg x1) zeros) (Host.powf (F := Ideal) (deg x1) negHalf) zeros

theorem zero_vec (i : S50000.Idx) : zeros i = 0 := by
  show val_main_v4 (F := Ideal) i = 0
  rw [val_main_v4_apply, val_main_cst_apply]; exact Ideal.ofBits_zero_f32
theorem one_vec (j : S800000.Idx) : (val_main_v11 (F := Ideal) : FVec Ideal S800000 .f32) j = 1 := by
  rw [val_main_v11_apply, val_main_cst_1_apply]; exact CountGuard.ofBits_one
theorem neg_half_vec (i : S50000.Idx) : negHalf i = ((-(1 / 2) : ℝ) : EReal) := by
  show val_main_v13 (F := Ideal) i = _
  rw [val_main_v13_apply, val_main_cst_2_apply]; exact CountGuard.ofBits_neg_half

/-- deg^(-1/2) kept where deg > 0 and replaced by 0 elsewhere is deg^(-1/2): the degree is a count. -/
theorem guarded_dinv (x1 : (⟨S2x800000, .i32⟩ : BufTy).Contents (Elt Ideal)) : dinvGuarded x1 = dinvPlain x1 :=
  CountGuard.select_count_pow scatter_S50000_S800000x1_S800000_n_0_0_1 zeros (val_main_v10 (F := Ideal) x1 : IVec S800000x1 32)
    (val_main_v11 (F := Ideal) : FVec Ideal S800000 .f32) zeros negHalf zeros
    zero_vec one_vec zero_vec neg_half_vec zero_vec

/-! ## The aggregation as a function of the normaliser vector and the edge list -/

/-- An edge-end list with the self loops appended: the 800000 given ends, then every node once. -/
def withLoops (e : IVec S800000 32) : IVec S850000 32 :=
  concatenate S850000 0 [⟨S800000, e⟩, ⟨S50000, (iotaInDim S50000 32 0 : IVec S50000 32)⟩] concatenates_S800000_S50000_S850000_d0

/-- A node index read as a signed position: a negative one counts from the end. -/
def wrapIdx (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The aggregated features from per-node normalisers dinv, the edges' source and destination nodes and the node
    features x: edge e (self loops appended) carries dinv(src e) · dinv(dst e); the row x(dst e) scaled by it is added into
    row src e. -/
def aggFrom (dinv : FVec Ideal S50000 .f32) (src dst : IVec S800000 32) (x0 : FVec Ideal S50000x256 .f32) :
    FVec Ideal S50000x256 .f32 :=
  Host.scatterAdd scatter_S50000x256_S850000x1_S850000x256_1_0_0_1
    (broadcastInDim S50000x256 ![] bcast_S_S50000x256 (constant (F := Ideal) S_ .f32 0x00000000#32))
    (broadcastInDim S850000x1 ![0] bcast_S850000_S850000x1_0 (withLoops src))
    (mulf
      (Host.gather gather_S50000x256_S850000x1_S850000x256_1_0_n_n_0_1_1256 x0
        (broadcastInDim S850000x1 ![0] bcast_S850000_S850000x1_0 (wrapIdx (withLoops dst))))
      (broadcastInDim S850000x256 ![0, 1] bcast_S850000x1_S850000x256_0_1
        (broadcastInDim S850000x1 ![0] bcast_S850000_S850000x1_0
          (mulf
            (Host.gather gather_S50000_S850000x1_S850000_n_0_n_n_0_1_1 dinv
              (broadcastInDim S850000x1 ![0] bcast_S850000_S850000x1_0 (wrapIdx (withLoops src))))
            (Host.gather gather_S50000_S850000x1_S850000_n_0_n_n_0_1_1 dinv
              (broadcastInDim S850000x1 ![0] bcast_S850000_S850000x1_0 (wrapIdx (withLoops dst))))))))

/-- The reference's aggregation stage is that function of its own inverse-square-root degree and edge-end stages. -/
theorem reference_agg (x0 : (⟨S50000x256, .f32⟩ : BufTy).Contents (Elt Ideal)) (x1 : (⟨S2x800000, .i32⟩ : BufTy).Contents (Elt Ideal)) :
    val_main_v45 (F := Ideal) x0 x1
      = aggFrom (dinvPlain x1) (val_main_v1 (F := Ideal) x1) (val_main_v3 (F := Ideal) x1) x0 := rfl

/-! ## The kernel's entry point, one stretch of operations at a time -/

section Kernel

variable (W : Valuation KernelIdeal.τ KernelIdeal.sig (Elt Ideal))

set_option maxHeartbeats 8000000 in
/-- The last stretch: the aggregation of whatever normaliser, edge ends and features the earlier stretches left. -/
theorem tail_agg :
    (after (KernelIdeal.Gen.hostOps0_2 (F := Ideal)) W (Proc.devRef .tc KernelIdeal.main_v48) : KernelIdeal.S50000x256.Idx → EReal)
      = aggFrom (W (Proc.devRef .tc KernelIdeal.main_v17)) (W (Proc.devRef .tc KernelIdeal.main_v1))
          (W (Proc.devRef .tc KernelIdeal.main_v3)) (W (Proc.devRef .tc KernelIdeal.main_arg0)) := by
  simp only [KernelIdeal.Gen.hostOps0_2]
  after_results_simp
  rfl

set_option maxHeartbeats 8000000 in
/-- The last stretch also reshapes the bias to one row. -/
theorem tail_bias :
    (after (KernelIdeal.Gen.hostOps0_2 (F := Ideal)) W (Proc.devRef .tc KernelIdeal.main_v49) : KernelIdeal.S1x256.Idx → EReal)
      = shapeCast KernelIdeal.S1x256 (W (Proc.devRef .tc KernelIdeal.main_arg3) : KernelIdeal.S256.Idx → EReal)
          KernelIdeal.Gen.shapeCasts_S256_S1x256 := by
  simp only [KernelIdeal.Gen.hostOps0_2]
  after_results_simp
  rfl

/-- The middle stretch is the guard: the power where the comparison holds, the splat of the scalar elsewhere. -/
theorem guard_v17 :
    (after (KernelIdeal.Gen.hostOps0_1 (F := Ideal)) W (Proc.devRef .tc KernelIdeal.main_v17) : KernelIdeal.S50000.Idx → EReal)
      = select (W (Proc.devRef .tc KernelIdeal.main_v14) : IVec KernelIdeal.S50000 1)
          (W (Proc.devRef .tc KernelIdeal.main_v16) : KernelIdeal.S50000.Idx → EReal)
          (broadcastInDim KernelIdeal.S50000 ![] KernelIdeal.Gen.bcast_S_S50000
            (W (Proc.devRef .tc KernelIdeal.main_cst_4) : KernelIdeal.S_.Idx → EReal)) := rfl

/-- and it writes none of the buffers the last stretch reads besides the guarded vector. -/
theorem guard_keeps_v1 : after (KernelIdeal.Gen.hostOps0_1 (F := Ideal)) W (Proc.devRef .tc KernelIdeal.main_v1)
    = W (Proc.devRef .tc KernelIdeal.main_v1) := rfl
theorem guard_keeps_v3 : after (KernelIdeal.Gen.hostOps0_1 (F := Ideal)) W (Proc.devRef .tc KernelIdeal.main_v3)
    = W (Proc.devRef .tc KernelIdeal.main_v3) := rfl
theorem guard_keeps_arg0 : after (KernelIdeal.Gen.hostOps0_1 (F := Ideal)) W (Proc.devRef .tc KernelIdeal.main_arg0)
    = W (Proc.devRef .tc KernelIdeal.main_arg0) := rfl
theorem guard_keeps_arg3 : after (KernelIdeal.Gen.hostOps0_1 (F := Ideal)) W (Proc.devRef .tc KernelIdeal.main_arg3)
    = W (Proc.devRef .tc KernelIdeal.main_arg3) := rfl

end Kernel

/-! ## The first stretch, from the launch contents -/

section Head

variable (m : (ℓ : Loc KernelIdeal.nD KernelIdeal.τ KernelIdeal.sig) → Buf (Elt Ideal) ℓ) (c : Dev KernelIdeal.nD)

/-- The launch contents of core c's buffers. -/
abbrev init : Valuation KernelIdeal.τ KernelIdeal.sig (Elt Ideal) := fun b => m (c, b)

/-- The node features and the edge list the kernel is launched with. -/
abbrev featK : (⟨S50000x256, .f32⟩ : BufTy).Contents (Elt Ideal) := m ((c : Thread KernelIdeal.nD KernelIdeal.τ).loc KernelIdeal.main_arg0)
abbrev edgesK : (⟨S2x800000, .i32⟩ : BufTy).Contents (Elt Ideal) := m ((c : Thread KernelIdeal.nD KernelIdeal.τ).loc KernelIdeal.main_arg1)

set_option maxHeartbeats 8000000 in
theorem head_v14 : (after (KernelIdeal.Gen.hostOps0 (F := Ideal)) (init m c) (Proc.devRef .tc KernelIdeal.main_v14) : IVec KernelIdeal.S50000 1)
    = cmpf (F := Ideal) .ogt (deg (edgesK m c)) zeros := by
  simp only [KernelIdeal.Gen.hostOps0]
  after_results_simp
  rfl

set_option maxHeartbeats 8000000 in
theorem head_v16 : (after (KernelIdeal.Gen.hostOps0 (F := Ideal)) (init m c) (Proc.devRef .tc KernelIdeal.main_v16) : KernelIdeal.S50000.Idx → EReal)
    = Host.powf (F := Ideal) (deg (edgesK m c)) negHalf := by
  simp only [KernelIdeal.Gen.hostOps0]
  after_results_simp
  rfl

set_option maxHeartbeats 8000000 in
theorem head_cst4 : (after (KernelIdeal.Gen.hostOps0 (F := Ideal)) (init m c) (Proc.devRef .tc KernelIdeal.main_cst_4) : KernelIdeal.S_.Idx → EReal)
    = val_main_cst (F := Ideal) := by
  simp only [KernelIdeal.Gen.hostOps0]
  after_results_simp
  rfl

set_option maxHeartbeats 8000000 in
theorem head_v1 : (after (KernelIdeal.Gen.hostOps0 (F := Ideal)) (init m c) (Proc.devRef .tc KernelIdeal.main_v1) : IVec KernelIdeal.S800000 32)
    = val_main_v1 (F := Ideal) (edgesK m c) := by
  simp only [KernelIdeal.Gen.hostOps0]
  after_results_simp
  rfl

set_option maxHeartbeats 8000000 in
theorem head_v3 : (after (KernelIdeal.Gen.hostOps0 (F := Ideal)) (init m c) (Proc.devRef .tc KernelIdeal.main_v3) : IVec KernelIdeal.S800000 32)
    = val_main_v3 (F := Ideal) (edgesK m c) := by
  simp only [KernelIdeal.Gen.hostOps0]
  after_results_simp
  rfl

set_option maxHeartbeats 8000000 in
theorem head_arg0 : after (KernelIdeal.Gen.hostOps0 (F := Ideal)) (init m c) (Proc.devRef .tc KernelIdeal.main_arg0) = (featK m c) := by
  simp only [KernelIdeal.Gen.hostOps0]
  after_results_simp

set_option maxHeartbeats 8000000 in
theorem head_arg3 : after (KernelIdeal.Gen.hostOps0 (F := Ideal)) (init m c) (Proc.devRef .tc KernelIdeal.main_arg3)
    = m ((c : Thread KernelIdeal.nD KernelIdeal.τ).loc KernelIdeal.main_arg3) := by
  simp only [KernelIdeal.Gen.hostOps0]
  after_results_simp

/-! ## The windows' arrays -/

/-- The contents the launch finds are the three stretches' in turn. -/
theorem V_split (b : Ref KernelIdeal.sig .tc) :
    KernelIdeal.Gen.V m c b = after (KernelIdeal.Gen.hostOps0_2 (F := Ideal))
      (after (KernelIdeal.Gen.hostOps0_1 (F := Ideal)) (after (KernelIdeal.Gen.hostOps0 (F := Ideal)) (init m c))) (Proc.devRef .tc b) := by
  show after (List.flatten [KernelIdeal.Gen.hostOps0 (F := Ideal), KernelIdeal.Gen.hostOps0_1, KernelIdeal.Gen.hostOps0_2]) (init m c) (Proc.devRef .tc b) = _
  simp only [List.flatten_cons, List.flatten_nil, List.append_nil, ListParts.after_append]

/-- The array under the kernel's first window is the reference's aggregation stage of the kernel's own inputs. -/
theorem kernel_agg :
    (KernelIdeal.Gen.V m c KernelIdeal.main_v48 : KernelIdeal.S50000x256.Idx → EReal) = val_main_v45 (F := Ideal) (featK m c) (edgesK m c) := by
  rw [V_split, tail_agg, guard_v17, guard_keeps_v1, guard_keeps_v3, guard_keeps_arg0, head_v14, head_v16, head_cst4, head_v1,
    head_v3, head_arg0, reference_agg]
  exact congrArg (fun d => aggFrom d (val_main_v1 (F := Ideal) (edgesK m c)) (val_main_v3 (F := Ideal) (edgesK m c)) (featK m c)) (guarded_dinv (edgesK m c))

/-- The array under the bias window, at its entry (0, q), is the bias at q. -/
theorem kernel_bias_apply (u : Fin 1) (q : Fin 256) :
    (KernelIdeal.Gen.V m c KernelIdeal.main_v49 : KernelIdeal.S1x256.Idx → EReal) (ix2 u q)
      = (m ((c : Thread KernelIdeal.nD KernelIdeal.τ).loc KernelIdeal.main_arg3) : KernelIdeal.S256.Idx → EReal) (ix1 q) := by
  rw [V_split, tail_bias, guard_keeps_arg3, head_arg3]
  exact shapeCast_a_1a_apply _ _ u q

end Head

end Cert.LinearRelu

end
-- ==== Proof.KernelIsSpec.lean ====
/-
  The kernel's output array as a function of the layer's inputs.

  The array the launch leaves is relu(A · Wᵀ + b) of the arrays under its windows. The first of these is the
  reference's aggregation stage of the kernel's own node features and edge list, the second the weights as launched,
  and the third holds the bias in its one row: so the output is relu(A · Wᵀ + b) with A that aggregation, W and b the
  arguments.
-/
import proofs.«114495_j53377853554877_2_alg».proof.Proof.Blocks
import proofs.«114495_j53377853554877_2_alg».proof.Proof.KernelArrays

noncomputable section

namespace Cert.LinearRelu

open Idealize.ShloMosaic Idealize.ShloMosaic.TcCoe Idealize.SL.Sem Idealize.ShloMosaic.ValueIdx

variable (m : (ℓ : Loc KernelIdeal.nD KernelIdeal.τ KernelIdeal.sig) → Buf (Elt Ideal) ℓ) (c : Dev KernelIdeal.nD)

/-- The layer's output, from the kernel's arguments: relu(agg(x, edges) · Wᵀ + b). -/
def layerOut : KernelIdeal.S50000x256.Idx → EReal :=
  linRelu (Cert.ReferenceIdeal.Read.val_main_v45 (F := Ideal) (featK m c) (edgesK m c))
    (m ((c : Thread KernelIdeal.nD KernelIdeal.τ).loc KernelIdeal.main_arg2))
    (m ((c : Thread KernelIdeal.nD KernelIdeal.τ).loc KernelIdeal.main_arg3))

/-- What the kernel's output array ends holding is the layer's output. -/
theorem kernelOut_eq : kernelOut m c = layerOut m c := by
  unfold kernelOut layerOut
  rw [kernel_agg, KernelIdeal.Gen.V_main_arg2]
  refine congrArg (linRelu _ _) (funext fun j => ?_)
  obtain ⟨q, rfl⟩ : ∃ q : Fin 256, j = ix1 q := ⟨j 0, eq_ix1 j⟩
  exact kernel_bias_apply m c 0 q

end Cert.LinearRelu

end
-- ==== Proof.RefIsSpec.lean ====
/-
  The reference's result is relu(A · Wᵀ + b) of ITS aggregated features.

  The reference transposes the weights and contracts the aggregated features' second axis with the transposed weights'
  first axis: entry (r, j) is Σ_k A(r, k) · Wᵀ(k, j) = Σ_k A(r, k) · W(j, k). The bias is laid along the rows by two
  broadcasts, [256] → [1, 256] → [50000, 256], so entry (r, j) of it is b(j); the final maximum is against the splat of 0.
  Here A is the reference's own aggregation stage, left unopened.
-/
import proofs.«114495_j53377853554877_2_alg».proof.Proof.Gen.ReferenceIdeal.Read
import proofs.«114495_j53377853554877_2_alg».proof.Proof.Spec
import Idealize.ShloMosaic.PureOps.Ideal.Laws

noncomputable section

namespace Cert.LinearRelu

open Idealize.ShloMosaic Idealize.ShloMosaic.ValueIdx Cert.ReferenceIdeal Cert.ReferenceIdeal.Read

/-- The reference's last stage, as a function of its aggregation stage, the weights and the bias. -/
theorem reference_eq (x0 : (⟨S50000x256, .f32⟩ : BufTy).Contents (Elt Ideal)) (x1 : (⟨S2x800000, .i32⟩ : BufTy).Contents (Elt Ideal))
    (x2 : (⟨S256x256, .f32⟩ : BufTy).Contents (Elt Ideal)) (x3 : (⟨S256, .f32⟩ : BufTy).Contents (Elt Ideal)) :
    val_main_v51 (F := Ideal) x0 x1 x2 x3 = linRelu (val_main_v45 (F := Ideal) x0 x1) x2 x3 := by
  funext i
  have e1 : ∀ k : Fin 256, lidx_main_v47 i k = ix2 (i 0) k := fun k => funext fun a => Fin.ext (by
    match a with
    | ⟨0, _⟩ => rfl
    | ⟨1, _⟩ => rfl)
  have e2 : ∀ k : Fin 256, idx_main_v46 (ridx_main_v47 i k) = ix2 (i 1) k := fun k => funext fun a => Fin.ext (by
    match a with
    | ⟨0, _⟩ => rfl
    | ⟨1, _⟩ => rfl)
  have e3 : idx_main_v48 (idx_main_v49 i) = ix1 (i 1) := funext fun a => Fin.ext (by
    match a with
    | ⟨0, _⟩ => rfl)
  rw [val_main_v51_apply, val_main_v50_apply, val_main_v47_apply, val_main_v49_apply, val_main_v48_apply,
    val_main_call0_v0_apply, val_main_call0_cst_apply, linRelu_apply]
  simp only [val_main_v46_apply, e1, e2, e3, Ideal.maximumf_def, Ideal.addf_def, Ideal.ofBits_def, Ideal.ofBits_zero_f32]
  rfl

end Cert.LinearRelu

end
-- ==== Proof.lean ====
/-
  A graph-convolution layer, relu( D^(-1/2) (A + I) D^(-1/2) x · Wᵀ + b ), computed two ways.

  Both programs build the normalised aggregation of the node features on the host with the same operations: the
  out-degree of every node (ones added at the edges' source nodes), its inverse square root, the coefficient
  dinv(src) · dinv(dst) of every edge and self loop, the rows x(dst) scaled by it, added up by source node. The kernel's
  entry point differs in one place: it guards the inverse square root, taking 0 where the degree is 0. A degree is a
  count, and on the extended reals the power 0^(-1/2) of two finite values is the real power, which is 0: the guard
  replaces 0 by 0, so the two aggregations are one array. The rest, relu(agg · Wᵀ + b), the reference computes with one
  whole product against the transposed weights; the kernel computes it 5000 rows at a time in ten grid points, each a product
  of its rows with the rows of W, contracting the same index in the same order. Entry by entry the two results are the
  same sum, so the claim needs no finiteness of the inputs and never opens the precondition.

  The three programs' runs and the kernel's launch are the generated modules'; written by hand are the guard's lemma
  (LibCountGuard), the arrays the launch finds (KernelArrays), the body's stored entry (Payload), the step from row blocks to
  the whole array (Blocks), and that the reference's last stage is the same function (RefIsSpec).
-/
import proofs.«114495_j53377853554877_2_alg».proof.Defs
import proofs.«114495_j53377853554877_2_alg».proof.Proof.Gen.Kernel
import proofs.«114495_j53377853554877_2_alg».proof.Proof.Gen.Kernel.Skeleton
import proofs.«114495_j53377853554877_2_alg».proof.Proof.Gen.Kernel.Launch
import proofs.«114495_j53377853554877_2_alg».proof.Proof.Gen.Kernel.Points
import proofs.«114495_j53377853554877_2_alg».proof.Proof.Gen.Kernel.Frame
import proofs.«114495_j53377853554877_2_alg».proof.Proof.Gen.KernelIdeal
import proofs.«114495_j53377853554877_2_alg».proof.Proof.Gen.KernelIdeal.Skeleton
import proofs.«114495_j53377853554877_2_alg».proof.Proof.Gen.KernelIdeal.Launch
import proofs.«114495_j53377853554877_2_alg».proof.Proof.Gen.KernelIdeal.Points
import proofs.«114495_j53377853554877_2_alg».proof.Proof.Gen.KernelIdeal.Frame
import proofs.«114495_j53377853554877_2_alg».proof.Proof.Gen.ReferenceIdeal
import proofs.«114495_j53377853554877_2_alg».proof.Proof.Gen.Pre_finite_inputs
import proofs.«114495_j53377853554877_2_alg».proof.Proof.Gen.KernelIdeal.Value
import proofs.«114495_j53377853554877_2_alg».proof.Proof.Gen.ReferenceIdeal.Run
import proofs.«114495_j53377853554877_2_alg».proof.Proof.Gen.ReferenceIdeal.Read
import proofs.«114495_j53377853554877_2_alg».proof.Proof.KernelIsSpec
import proofs.«114495_j53377853554877_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference runs and leaves its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel at exact values rewrote no operation. -/
theorem preserves : Cert.preserves_Kernel_KernelIdeal := trivial

/-- From memories agreeing on the arguments both programs end with the layer's output relu(agg(x, edges) · Wᵀ + b) of
    those arguments: the kernel by its launch over the row blocks, the reference by its run, and the two aggregations are
    one array because the guard on the degree changes nothing. -/
theorem algebraic : Cert.algebraic_KernelIdeal_ReferenceIdeal := by
  intro m ρ m' ρ' _ hagree
  refine ⟨fun c => Cert.LinearRelu.layerOut m c, ?_, ?_⟩
  · exact (θ_run Cert.KernelIdeal.defs _ _).mono
      (fun r h c => ⟨(h c).1.trans (Cert.LinearRelu.kernelOut_eq m c), (h c).2⟩) (Cert.LinearRelu.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v51_eq, Cert.LinearRelu.reference_eq, (hagree c).1, (hagree c).2.1,
      (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
